-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x256 : Shape := ⟨3, ![32, 16384, 256]⟩
abbrev S32x16x256 : Shape := ⟨3, ![32, 16, 256]⟩
abbrev S32x256x128 : Shape := ⟨3, ![32, 256, 128]⟩
abbrev S_ : Shape := ⟨0, ![]⟩

class Facts : Prop where
  bcast_S_S32x16384x256 : S_.BroadcastsInDim S32x16384x256 (![] : Fin 0 → Fin S32x16384x256.rank)
  reducesTo_S32x16384x256_S_d0_1_2 : S32x16384x256.ReducesTo [0, 1, 2] S_
  h_S_ : 0 < S_.numel
  bcast_S_S32x16x256 : S_.BroadcastsInDim S32x16x256 (![] : Fin 0 → Fin S32x16x256.rank)
  reducesTo_S32x16x256_S_d0_1_2 : S32x16x256.ReducesTo [0, 1, 2] S_
  bcast_S_S32x256x128 : S_.BroadcastsInDim S32x256x128 (![] : Fin 0 → Fin S32x256x128.rank)
  reducesTo_S32x256x128_S_d0_1_2 : S32x256x128.ReducesTo [0, 1, 2] S_

variable [Facts]

def fn {F : FTy → Type} [FloatOps F] (main_arg0 : FVec F S32x16384x256 .f32) (main_arg1 : FVec F S32x16x256 .f32) (main_arg2 : FVec F S32x256x128 .f32) : IVec S_ 1 :=
  let main_v0 : FVec F S32x16384x256 .f32 := Host.absf main_arg0
  let main_cst : FVec F S_ .f32 := constant S_ .f32 0x7F800000#32
  let main_v1 : FVec F S32x16384x256 .f32 := broadcastInDim S32x16384x256 ![] bcast_S_S32x16384x256 main_cst
  let main_v2 : IVec S32x16384x256 1 := cmpf .olt main_v0 main_v1
  let main_c : IVec S_ 1 := constantI S_ 1 1#1
  let main_v3 : IVec S_ 1 := (fun x v => Host.reduce IntOp.andi x v reducesTo_S32x16384x256_S_d0_1_2 h_S_) main_v2 main_c
  let main_v4 : FVec F S32x16x256 .f32 := Host.absf main_arg1
  let main_cst_0 : FVec F S_ .f32 := constant S_ .f32 0x7F800000#32
  let main_v5 : FVec F S32x16x256 .f32 := broadcastInDim S32x16x256 ![] bcast_S_S32x16x256 main_cst_0
  let main_v6 : IVec S32x16x256 1 := cmpf .olt main_v4 main_v5
  let main_c_1 : IVec S_ 1 := constantI S_ 1 1#1
  let main_v7 : IVec S_ 1 := (fun x v => Host.reduce IntOp.andi x v reducesTo_S32x16x256_S_d0_1_2 h_S_) main_v6 main_c_1
  let main_v8 : IVec S_ 1 := andi main_v3 main_v7
  let main_v9 : FVec F S32x256x128 .f32 := Host.absf main_arg2
  let main_cst_2 : FVec F S_ .f32 := constant S_ .f32 0x7F800000#32
  let main_v10 : FVec F S32x256x128 .f32 := broadcastInDim S32x256x128 ![] bcast_S_S32x256x128 main_cst_2
  let main_v11 : IVec S32x256x128 1 := cmpf .olt main_v9 main_v10
  let main_c_3 : IVec S_ 1 := constantI S_ 1 1#1
  let main_v12 : IVec S_ 1 := (fun x v => Host.reduce IntOp.andi x v reducesTo_S32x256x128_S_d0_1_2 h_S_) main_v11 main_c_3
  let main_v13 : IVec S_ 1 := andi main_v8 main_v12
  main_v13
-- ==== Kernel.lean ====
abbrev S32x16384x256 : Shape := ⟨3, ![32, 16384, 256]⟩
abbrev S32x16x256 : Shape := ⟨3, ![32, 16, 256]⟩
abbrev S32x256x128 : Shape := ⟨3, ![32, 256, 128]⟩
abbrev S32x16x128 : Shape := ⟨3, ![32, 16, 128]⟩
abbrev S1x8192x256 : Shape := ⟨3, ![1, 8192, 256]⟩
abbrev S1x16x256 : Shape := ⟨3, ![1, 16, 256]⟩
abbrev S1x256x128 : Shape := ⟨3, ![1, 256, 128]⟩
abbrev S1x16x128 : Shape := ⟨3, ![1, 16, 128]⟩
abbrev S16x1 : Shape := ⟨2, ![16, 1]⟩
abbrev S16x128 : Shape := ⟨2, ![16, 128]⟩
abbrev S8192x256 : Shape := ⟨2, ![8192, 256]⟩
abbrev S16x256 : Shape := ⟨2, ![16, 256]⟩
abbrev S16x8192 : Shape := ⟨2, ![16, 8192]⟩
abbrev S16 : Shape := ⟨1, ![16]⟩
abbrev S256x128 : Shape := ⟨2, ![256, 128]⟩
abbrev S8192x128 : Shape := ⟨2, ![8192, 128]⟩

abbrev nBuf : Space → Nat
  | .hbm => 4
  | .vmem => 11
  | .smem => 0
  | _ => 0

abbrev bufTy : (tb : Table) → Fin (tcTables nBuf tb) → BufTy
  | .hbm, ⟨0, _⟩ => ⟨S32x16384x256, .f32⟩
  | .hbm, ⟨1, _⟩ => ⟨S32x16x256, .f32⟩
  | .hbm, ⟨2, _⟩ => ⟨S32x256x128, .f32⟩
  | .hbm, ⟨3, _⟩ => ⟨S32x16x128, .f32⟩
  | .local _ .vmem, ⟨0, _⟩ => ⟨S1x8192x256, .f32⟩
  | .local _ .vmem, ⟨1, _⟩ => ⟨S1x8192x256, .f32⟩
  | .local _ .vmem, ⟨2, _⟩ => ⟨S1x16x256, .f32⟩
  | .local _ .vmem, ⟨3, _⟩ => ⟨S1x16x256, .f32⟩
  | .local _ .vmem, ⟨4, _⟩ => ⟨S1x256x128, .f32⟩
  | .local _ .vmem, ⟨5, _⟩ => ⟨S1x256x128, .f32⟩
  | .local _ .vmem, ⟨6, _⟩ => ⟨S1x16x128, .f32⟩
  | .local _ .vmem, ⟨7, _⟩ => ⟨S1x16x128, .f32⟩
  | .local _ .vmem, ⟨8, _⟩ => ⟨S16x1, .f32⟩
  | .local _ .vmem, ⟨9, _⟩ => ⟨S16x1, .f32⟩
  | .local _ .vmem, ⟨10, _⟩ => ⟨S16x128, .f32⟩
  | _, _ => ⟨S32x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v44 : BitVec 1 := Scalar.cmpi .eq arg1 c1_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  bitsLt_bf16_f32 : FTy.bits .bf16 < FTy.bits .f32
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  reduces_S16x8192_S16 : S16x8192.Reduces [1] S16
  shapeCasts_S16_S16x1 : S16.ShapeCasts S16x1
  broadcasts_S16x1_S16x8192 : S16x1.Broadcasts S16x8192
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  broadcasts_S16x1_S16x128 : S16x1.Broadcasts S16x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  dot_S16x256_S8192x256_S16x8192_1_1_0_0_n_n_wf : DotDims.WF S16x256 S8192x256 S16x8192 [1] [1] [0] [0] [] []
  dot_S8192x256_S256x128_S8192x128_1_0_0_1_n_n_wf : DotDims.WF S8192x256 S256x128 S8192x128 [1] [0] [0] [1] [] []
  dot_S16x8192_S8192x128_S16x128_1_0_0_1_n_n_wf : DotDims.WF S16x8192 S8192x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S32x16384x256.size a
  hwx0_0 : ∀ i : grid0.Coords, EltTy.bits .f32 = 32 ∨ (Rect.block (s := S32x16384x256) S1x8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S32x16x256.size a
  hwx0_1 : ∀ i : grid0.Coords, EltTy.bits .f32 = 32 ∨ (Rect.block (s := S32x16x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S32x256x128.size a
  hwx0_2 : ∀ i : grid0.Coords, EltTy.bits .f32 = 32 ∨ (Rect.block (s := S32x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S32x16x128.size a
  hwx0_3 : ∀ i : grid0.Coords, EltTy.bits .f32 = 32 ∨ (Rect.block (s := S32x16x128) S1x16x128.size (cc0_transform_3 i) (hinb0_3 i)).WholeWords (EltTy.packing .f32)

variable [Facts₀]

def dot_S16x256_S8192x256_S16x8192_1_1_0_0_n_n : DotDims S16x256 S8192x256 S16x8192 where
  lhsContracting := [1]
  rhsContracting := [1]
  lhsNonContracting := [0]
  rhsNonContracting := [0]
  lhsBatch := []
  rhsBatch := []
  wf := dot_S16x256_S8192x256_S16x8192_1_1_0_0_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S16x8192_S8192x128_S16x128_1_0_0_1_n_n : DotDims S16x8192 S8192x128 S16x128 where
  lhsContracting := [1]
  rhsContracting := [0]
  lhsNonContracting := [0]
  rhsNonContracting := [1]
  lhsBatch := []
  rhsBatch := []
  wf := dot_S16x8192_S8192x128_S16x128_1_0_0_1_n_n_wf

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x16384x256 : Shape := ⟨3, ![32, 16384, 256]⟩
abbrev S32x16x256 : Shape := ⟨3, ![32, 16, 256]⟩
abbrev S32x256x128 : Shape := ⟨3, ![32, 256, 128]⟩
abbrev S32x16x16384 : Shape := ⟨3, ![32, 16, 16384]⟩
abbrev S_ : Shape := ⟨0, ![]⟩
abbrev S32x16 : Shape := ⟨2, ![32, 16]⟩
abbrev S32x16x1 : Shape := ⟨3, ![32, 16, 1]⟩
abbrev S32x16384x128 : Shape := ⟨3, ![32, 16384, 128]⟩
abbrev S32x16x128 : Shape := ⟨3, ![32, 16, 128]⟩

abbrev nBuf : Space → Nat
  | .hbm => 20
  | .vmem => 0
  | .smem => 0
  | _ => 0

abbrev bufTy : (tb : Table) → Fin (tcTables nBuf tb) → BufTy
  | .hbm, ⟨0, _⟩ => ⟨S32x16384x256, .f32⟩
  | .hbm, ⟨1, _⟩ => ⟨S32x16x256, .f32⟩
  | .hbm, ⟨2, _⟩ => ⟨S32x256x128, .f32⟩
  | .hbm, ⟨3, _⟩ => ⟨S32x16x16384, .f32⟩
  | .hbm, ⟨4, _⟩ => ⟨S_, .f32⟩
  | .hbm, ⟨5, _⟩ => ⟨S32x16, .f32⟩
  | .hbm, ⟨6, _⟩ => ⟨S_, .f32⟩
  | .hbm, ⟨7, _⟩ => ⟨S32x16, .f32⟩
  | .hbm, ⟨8, _⟩ => ⟨S32x16, .f32⟩
  | .hbm, ⟨9, _⟩ => ⟨S32x16x1, .f32⟩
  | .hbm, ⟨10, _⟩ => ⟨S32x16x16384, .f32⟩
  | .hbm, ⟨11, _⟩ => ⟨S32x16x16384, .f32⟩
  | .hbm, ⟨12, _⟩ => ⟨S32x16x16384, .f32⟩
  | .hbm, ⟨13, _⟩ => ⟨S_, .f32⟩
  | .hbm, ⟨14, _⟩ => ⟨S32x16, .f32⟩
  | .hbm, ⟨15, _⟩ => ⟨S32x16x1, .f32⟩
  | .hbm, ⟨16, _⟩ => ⟨S32x16x16384, .f32⟩
  | .hbm, ⟨17, _⟩ => ⟨S32x16x16384, .f32⟩
  | .hbm, ⟨18, _⟩ => ⟨S32x16384x128, .f32⟩
  | .hbm, ⟨19, _⟩ => ⟨S32x16x128, .f32⟩
  | _, _ => ⟨S32x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S32x16x16384_S32x16_d2 : S32x16x16384.ReducesTo [2] S32x16
  h_S_ : 0 < S_.numel
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x16384_0_1_2 : S32x16x1.BroadcastsInDim S32x16x16384 (![0, 1, 2] : Fin 3 → Fin S32x16x16384.rank)
  dot_S32x16x256_S32x16384x256_S32x16x16384_2_2_1_1_0_0_wf : DotDims.WF S32x16x256 S32x16384x256 S32x16x16384 [2] [2] [1] [1] [0] [0]
  dot_S32x16384x256_S32x256x128_S32x16384x128_2_1_1_2_0_0_wf : DotDims.WF S32x16384x256 S32x256x128 S32x16384x128 [2] [1] [1] [2] [0] [0]
  dot_S32x16x16384_S32x16384x128_S32x16x128_2_1_1_2_0_0_wf : DotDims.WF S32x16x16384 S32x16384x128 S32x16x128 [2] [1] [1] [2] [0] [0]

variable [Facts₀]

def dot_S32x16x256_S32x16384x256_S32x16x16384_2_2_1_1_0_0 : DotDims S32x16x256 S32x16384x256 S32x16x16384 where
  lhsContracting := [2]
  rhsContracting := [2]
  lhsNonContracting := [1]
  rhsNonContracting := [1]
  lhsBatch := [0]
  rhsBatch := [0]
  wf := dot_S32x16x256_S32x16384x256_S32x16x16384_2_2_1_1_0_0_wf
def dot_S32x16384x256_S32x256x128_S32x16384x128_2_1_1_2_0_0 : DotDims S32x16384x256 S32x256x128 S32x16384x128 where
  lhsContracting := [2]
  rhsContracting := [1]
  lhsNonContracting := [1]
  rhsNonContracting := [2]
  lhsBatch := [0]
  rhsBatch := [0]
  wf := dot_S32x16384x256_S32x256x128_S32x16384x128_2_1_1_2_0_0_wf
def dot_S32x16x16384_S32x16384x128_S32x16x128_2_1_1_2_0_0 : DotDims S32x16x16384 S32x16384x128 S32x16x128 where
  lhsContracting := [2]
  rhsContracting := [1]
  lhsNonContracting := [1]
  rhsNonContracting := [2]
  lhsBatch := [0]
  rhsBatch := [0]
  wf := dot_S32x16x16384_S32x16384x128_S32x16x128_2_1_1_2_0_0_wf

class Facts : Prop extends Facts₀ where

variable [Facts]
-- ==== Proof.Pieces.lean ====
/-
  What the kernel body leaves behind, case by case, as pure functions of what it loaded.

  The body keeps three running quantities in scratch across the two points of a batch row: the running
  row maximum m, the running denominator l and the running numerator acc.  At the first point (the
  reset) it stores minus infinity, zero and zero and then updates them from the point's block; at the
  second point it updates them again from what the first point left and writes acc / l to the output
  block.  Each lemma below reads one store back: the last store into a buffer decides its contents,
  and a load that follows a store into the same buffer reads the stored value.
-/
import proofs.«111957_j37452114821261_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x8192x256 .f32) (harg2 : arg2.IsWhole)
  (arg3 : Memref sig .tc .vmem S1x16x256 .f32) (harg3 : arg3.IsWhole)
  (arg4 : Memref sig .tc .vmem S1x256x128 .f32) (harg4 : arg4.IsWhole)
  (arg5 : Memref sig .tc .vmem S1x16x128 .f32) (harg5 : arg5.IsWhole)
  (arg6 : Memref sig .tc .vmem S16x1 .f32) (harg6 : arg6.IsWhole)
  (arg7 : Memref sig .tc .vmem S16x1 .f32) (harg7 : arg7.IsWhole)
  (arg8 : Memref sig .tc .vmem S16x128 .f32) (harg8 : arg8.IsWhole)
  (x0 : Vec F S1x8192x256 .f32) (x1 : Vec F S1x16x256 .f32) (x2 : Vec F S1x256x128 .f32)

/-- After the first point of a batch row the running-maximum scratch holds the maximum of minus
    infinity and the row maxima of the scores of the point's block. -/
theorem first_max (hc0 : cond0_0 i) (hc1 : ¬cond0_1 i) :
    sout0_A_0 c i arg2 harg2 arg3 harg3 arg4 harg4 arg5 harg5 arg6 harg6 arg7 harg7 arg8 harg8 hc0 hc1 x0 x1 x2
      = k0_pay12 x0 x1 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S16x1) hz2]
  simp only [View.readAt_eq_ld, harg2.read_unread, harg3.read_unread, harg4.read_unread, harg6.read_unread,
    harg7.read_unread, harg8.read_unread, View.ld_unit_zero (S := S1x8192x256) hz3, View.ld_unit_zero (S := S1x16x256) hz3,
    View.ld_unit_zero (S := S1x256x128) hz3, View.ld_unit_zero (S := S16x1) hz2, View.ld_unit_zero (S := S16x128) hz2,
    View.readCov_unit_zero (S := S16x1) _ hz2, View.readCov_unit_zero (S := S16x128) _ hz2]

/-- After the first point the running-denominator scratch holds the correction factor times zero
    plus the row sums of the shifted exponentials. -/
theorem first_den (hc0 : cond0_0 i) (hc1 : ¬cond0_1 i) :
    sout0_A_1 c i arg2 harg2 arg3 harg3 arg4 harg4 arg5 harg5 arg6 harg6 arg7 harg7 arg8 harg8 hc0 hc1 x0 x1 x2
      = k0_pay11 x0 x1 k0_pay3 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S16x1) hz2]
  simp only [View.readAt_eq_ld, harg2.read_unread, harg3.read_unread, harg4.read_unread, harg6.read_unread,
    harg7.read_unread, harg8.read_unread, View.ld_unit_zero (S := S1x8192x256) hz3, View.ld_unit_zero (S := S1x16x256) hz3,
    View.ld_unit_zero (S := S1x256x128) hz3, View.ld_unit_zero (S := S16x1) hz2, View.ld_unit_zero (S := S16x128) hz2,
    View.readCov_unit_zero (S := S16x1) _ hz2, View.readCov_unit_zero (S := S16x128) _ hz2]

/-- After the first point the running-numerator scratch holds the correction factor times zero plus
    the shifted exponentials contracted with the projected values. -/
theorem first_num (hc0 : cond0_0 i) (hc1 : ¬cond0_1 i) :
    sout0_A_2 c i arg2 harg2 arg3 harg3 arg4 harg4 arg5 harg5 arg6 harg6 arg7 harg7 arg8 harg8 hc0 hc1 x0 x1 x2
      = k0_pay1 (k0_pay6 x0) (k0_pay9 x0 x1 k0_pay3) (k0_pay10 x0 x1 k0_pay3) (k0_pay13 x2) k0_pay5 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S16x128) hz2]
  simp only [View.readAt_eq_ld, harg2.read_unread, harg3.read_unread, harg4.read_unread, harg6.read_unread,
    harg7.read_unread, harg8.read_unread, View.ld_unit_zero (S := S1x8192x256) hz3, View.ld_unit_zero (S := S1x16x256) hz3,
    View.ld_unit_zero (S := S1x256x128) hz3, View.ld_unit_zero (S := S16x1) hz2, View.ld_unit_zero (S := S16x128) hz2,
    View.readCov_unit_zero (S := S16x1) _ hz2, View.readCov_unit_zero (S := S16x128) _ hz2]

/-- At the second point of a batch row, over what the first left in the three scratches, the output
    block is the updated numerator divided by the updated denominator. -/
theorem second_out (hc0 : ¬cond0_0 i) (hc1 : cond0_1 i) (xs0 xs1 : Vec F S16x1 .f32) (xs2 : Vec F S16x128 .f32) :
    out0_B_3 c i arg2 harg2 arg3 harg3 arg4 harg4 arg5 harg5 arg6 harg6 arg7 harg7 arg8 harg8 hc0 hc1 x0 x1 x2 xs0 xs1 xs2
      = k0_pay2 (k0_pay1 (k0_pay6 x0) (k0_pay9 x0 x1 xs0) (k0_pay10 x0 x1 xs0) (k0_pay13 x2) xs2) (k0_pay11 x0 x1 xs0 xs1) := by
  unfold out0_B_3
  rw [View.read_writes_eq_canon _ _ _ (cover0_B_3 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1x16x128) hz3]
  simp only [View.readAt_eq_ld, harg2.read_unread, harg3.read_unread, harg4.read_unread, harg6.read_unread,
    harg7.read_unread, harg8.read_unread, View.ld_unit_zero (S := S1x8192x256) hz3, View.ld_unit_zero (S := S1x16x256) hz3,
    View.ld_unit_zero (S := S1x256x128) hz3, View.ld_unit_zero (S := S16x1) hz2, View.ld_unit_zero (S := S16x128) hz2,
    View.readCov_unit_zero (S := S16x1) _ hz2, View.readCov_unit_zero (S := S16x128) _ hz2]

end Cert.KernelIdeal.Pieces
end
-- ==== Proof.KernelRun.lean ====
/-
  The kernel's result array as one function of the three argument arrays.

  The grid has 64 points, two per batch row b: point 2b stages rows 0..8191 of X[b] and point 2b+1
  rows 8192..16383, both with all of wA[b] and wV[b].  Only the second point of a row writes the
  output block, and the pipeline writes that block back to row b of the result.  So the result at
  (b, l, c) is the output tile of row b, the body's arithmetic applied first to the first half of the
  row from the reset values and then to the second half from what the first left, read at (l, c).
-/
import proofs.«111957_j37452114821261_2_alg».proof.Proof.Pieces
import proofs.«111957_j37452114821261_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.PoolRun

open Cert.KernelIdeal Cert.KernelIdeal.Gen

variable {F : FTy → Type} [FloatOps F]

/-! ## The blocks the windows stage, as slices of the arrays -/

/-- Half h of row b of X: rows 8192 h .. 8192 h + 8191. -/
def xblk (X : S32x16384x256.Idx → Elt F .f32) (b : Fin 32) (h : Fin 2) : Vec F S1x8192x256 .f32 :=
  fun y => X (ValueIdx.ix3 b
    ⟨h.val * 8192 + (y 1).val, by have h1 : (y 1).val < 8192 := (y 1).isLt; have := h.isLt; omega⟩
    ⟨(y 2).val, (y 2).isLt⟩)

/-- Row b of the query weights. -/
def ablk (A : S32x16x256.Idx → Elt F .f32) (b : Fin 32) : Vec F S1x16x256 .f32 :=
  fun y => A (ValueIdx.ix3 b ⟨(y 1).val, (y 1).isLt⟩ ⟨(y 2).val, (y 2).isLt⟩)

/-- Row b of the value weights. -/
def wblk (W : S32x256x128.Idx → Elt F .f32) (b : Fin 32) : Vec F S1x256x128 .f32 :=
  fun y => W (ValueIdx.ix3 b ⟨(y 1).val, (y 1).isLt⟩ ⟨(y 2).val, (y 2).isLt⟩)

/-- The block indices of the four windows at point t: the row is t / 2, the half t % 2. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

variable (m : (ℓ : Loc nD τ sig) → Buf (Elt F) ℓ) (ρ : Dev nD → PrngReg)

theorem iblk0_eq (c : Dev nD) (t : Fin cfg0.N) (b : Fin 32) (h : Fin 2) (hb : t.val / 2 = b.val) (hh : t.val % 2 = h.val) :
    (iblk m c 0 t : Vec F S1x8192x256 .f32) = xblk (V m c main_arg0) b h := by
  obtain ⟨e0, e1, e2, -⟩ := idx_facts t
  funext y
  unfold iblk xblk
  rw [View.read_apply]
  show V m c main_arg0 _ = V m c main_arg0 _
  congr 1
  funext a
  apply Fin.ext
  match a with
  | ⟨0, _⟩ => show win0_0.index t 0 * 1 + 1 * (y 0).val = b.val; have : (y 0).val < 1 := (y 0).isLt; omega
  | ⟨1, _⟩ => show win0_0.index t 1 * 8192 + 1 * (y 1).val = h.val * 8192 + (y 1).val; omega
  | ⟨2, _⟩ => show win0_0.index t 2 * 256 + 1 * (y 2).val = (y 2).val; omega

theorem iblk1_eq (c : Dev nD) (t : Fin cfg0.N) (b : Fin 32) (hb : t.val / 2 = b.val) :
    (iblk m c 1 t : Vec F S1x16x256 .f32) = ablk (V m c main_arg1) b := by
  obtain ⟨-, -, -, e0, e1, e2, -⟩ := idx_facts t
  funext y
  unfold iblk ablk
  rw [View.read_apply]
  show V m c main_arg1 _ = V m c main_arg1 _
  congr 1
  funext a
  apply Fin.ext
  match a with
  | ⟨0, _⟩ => show win0_1.index t 0 * 1 + 1 * (y 0).val = b.val; have : (y 0).val < 1 := (y 0).isLt; omega
  | ⟨1, _⟩ => show win0_1.index t 1 * 16 + 1 * (y 1).val = (y 1).val; omega
  | ⟨2, _⟩ => show win0_1.index t 2 * 256 + 1 * (y 2).val = (y 2).val; omega

theorem iblk2_eq (c : Dev nD) (t : Fin cfg0.N) (b : Fin 32) (hb : t.val / 2 = b.val) :
    (iblk m c 2 t : Vec F S1x256x128 .f32) = wblk (V m c main_arg2) b := by
  obtain ⟨-, -, -, -, -, -, e0, e1, e2, -⟩ := idx_facts t
  funext y
  unfold iblk wblk
  rw [View.read_apply]
  show V m c main_arg2 _ = V m c main_arg2 _
  congr 1
  funext a
  apply Fin.ext
  match a with
  | ⟨0, _⟩ => show win0_2.index t 0 * 1 + 1 * (y 0).val = b.val; have : (y 0).val < 1 := (y 0).isLt; omega
  | ⟨1, _⟩ => show win0_2.index t 1 * 256 + 1 * (y 1).val = (y 1).val; omega
  | ⟨2, _⟩ => show win0_2.index t 2 * 128 + 1 * (y 2).val = (y 2).val; omega

/-! ## The output tile of a batch row, and the result array -/

/-- The output tile of batch row b: the body run on the first half of the row from the reset values
    (maximum at minus infinity, denominator and numerator at zero), then on the second half from what
    the first left, ending in numerator / denominator. -/
def tile (X : S32x16384x256.Idx → Elt F .f32) (A : S32x16x256.Idx → Elt F .f32) (W : S32x256x128.Idx → Elt F .f32)
    (b : Fin 32) : Vec F S1x16x128 .f32 :=
  k0_pay2
    (k0_pay1 (k0_pay6 (xblk X b 1)) (k0_pay9 (xblk X b 1) (ablk A b) (k0_pay12 (xblk X b 0) (ablk A b) k0_pay3))
      (k0_pay10 (xblk X b 1) (ablk A b) (k0_pay12 (xblk X b 0) (ablk A b) k0_pay3)) (k0_pay13 (wblk W b))
      (k0_pay1 (k0_pay6 (xblk X b 0)) (k0_pay9 (xblk X b 0) (ablk A b) k0_pay3) (k0_pay10 (xblk X b 0) (ablk A b) k0_pay3)
        (k0_pay13 (wblk W b)) k0_pay5))
    (k0_pay11 (xblk X b 1) (ablk A b) (k0_pay12 (xblk X b 0) (ablk A b) k0_pay3)
      (k0_pay11 (xblk X b 0) (ablk A b) k0_pay3 k0_pay4))

/-- The result array: row b is the output tile of row b. -/
def pooled (X : S32x16384x256.Idx → Elt F .f32) (A : S32x16x256.Idx → Elt F .f32) (W : S32x256x128.Idx → Elt F .f32) :
    S32x16x128.Idx → Elt F .f32 :=
  fun i => tile X A W ⟨(i 0).val, (i 0).isLt⟩
    (ValueIdx.ix3 (0 : Fin 1) ⟨(i 1).val, (i 1).isLt⟩ ⟨(i 2).val, (i 2).isLt⟩)

/-- What a second point of a row writes back is that row of the result. -/
theorem flushed_eq (c : Dev nD) (t : Fin cfg0.N) (hf : (cfg0.win 3).flush t = true) :
    (dats m 0 c).flushed 3 t
      = ((cfg0.win 3).blk t).view.read (Elt F) (pooled (V m c main_arg0) (V m c main_arg1) (V m c main_arg2)) := by
  have hN : t.val < 64 := lt_of_lt_of_eq t.isLt (show cfg0.N = 64 from N_0)
  have h1 : t.val % 2 = 1 := (flush0_3 t).mp hf
  have h0 : ¬t.val % 2 = 0 := by omega
  have hlt : t.val - 1 < cfg0.N := Nat.lt_of_le_of_lt (Nat.sub_le _ _) t.isLt
  rw [Value.flushed3_B m c t h0 h1]
  rw [outsAt0_A m c ⟨t.val - 1, hlt⟩ (by show (t.val - 1) % 2 = 0; omega) (by show ¬(t.val - 1) % 2 = 1; omega)]
  dsimp only
  rw [Pieces.second_out, Pieces.first_max, Pieces.first_den, Pieces.first_num]
  -- the six staged blocks, as slices of the arrays
  have hb : t.val / 2 < 32 := by omega
  rw [iblk0_eq m c t ⟨t.val / 2, hb⟩ 1 rfl (by show t.val % 2 = 1; exact h1),
    iblk0_eq m c ⟨t.val - 1, hlt⟩ ⟨t.val / 2, hb⟩ 0 (by show (t.val - 1) / 2 = t.val / 2; omega) (by show (t.val - 1) % 2 = 0; omega),
    iblk1_eq m c t ⟨t.val / 2, hb⟩ rfl,
    iblk1_eq m c ⟨t.val - 1, hlt⟩ ⟨t.val / 2, hb⟩ (by show (t.val - 1) / 2 = t.val / 2; omega),
    iblk2_eq m c t ⟨t.val / 2, hb⟩ rfl,
    iblk2_eq m c ⟨t.val - 1, hlt⟩ ⟨t.val / 2, hb⟩ (by show (t.val - 1) / 2 = t.val / 2; omega)]
  obtain ⟨-, -, -, -, -, -, -, -, -, e0, e1, e2⟩ := idx_facts t
  funext j
  rw [View.read_apply]
  show tile (V m c main_arg0) (V m c main_arg1) (V m c main_arg2) ⟨t.val / 2, hb⟩ j = pooled _ _ _ _
  unfold pooled
  have key : ∀ (b' : Fin 32) (j' : S1x16x128.Idx), b' = ⟨t.val / 2, hb⟩ → j' = j →
      tile (V m c main_arg0) (V m c main_arg1) (V m c main_arg2) ⟨t.val / 2, hb⟩ j
        = tile (V m c main_arg0) (V m c main_arg1) (V m c main_arg2) b' j' := by
    rintro _ _ rfl rfl; rfl
  refine key _ _ (Fin.ext ?_) (funext fun a => Fin.ext ?_)
  · show win0_3.index t 0 * 1 + 1 * (j 0).val = t.val / 2
    have : (j 0).val < 1 := (j 0).isLt; omega
  · match a with
    | ⟨0, _⟩ => show 0 = (j 0).val; have : (j 0).val < 1 := (j 0).isLt; omega
    | ⟨1, _⟩ => show win0_3.index t 1 * 16 + 1 * (j 1).val = (j 1).val; omega
    | ⟨2, _⟩ => show win0_3.index t 2 * 128 + 1 * (j 2).val = (j 2).val; omega

/-- An index of the result is in point t's block iff each coordinate is in the block's range. -/
theorem mem_blk (t : Fin cfg0.N) (i : S32x16x128.Idx) :
    i ∈ ((cfg0.win 3).blk t).view.set ↔ ∀ a : Fin 3, win0_3.index t a * S1x16x128.size a ≤ (i a).val
      ∧ (i a).val < win0_3.index t a * S1x16x128.size a + S1x16x128.size a := by
  show i ∈ ((View.whole main_v0).slice (win0_3.rect t)).set ↔ _
  rw [View.set_slice_whole, Rect.mem_set_unit]
  exact Iff.rfl

/-- Row b of the result is covered by the block of point 2b+1, which is written back. -/
theorem cover (i : S32x16x128.Idx) :
    ∃ t : Fin cfg0.N, (cfg0.win 3).flush t = true ∧ i ∈ ((cfg0.win 3).blk t).view.set := by
  have hi0 : (i 0).val < 32 := (i 0).isLt
  have hi1 : (i 1).val < 16 := (i 1).isLt
  have hi2 : (i 2).val < 128 := (i 2).isLt
  have hN : cfg0.N = 64 := N_0
  refine ⟨⟨2 * (i 0).val + 1, by omega⟩, (flush0_3 _).mpr (by show (2 * (i 0).val + 1) % 2 = 1; omega), ?_⟩
  obtain ⟨-, -, -, -, -, -, -, -, -, e0, e1, e2⟩ := idx_facts ⟨2 * (i 0).val + 1, by omega⟩
  rw [mem_blk]
  intro a
  match a with
  | ⟨0, _⟩ => show win0_3.index _ 0 * 1 ≤ (i 0).val ∧ (i 0).val < win0_3.index _ 0 * 1 + 1
              rw [e0]; show (2 * (i 0).val + 1) / 2 * 1 ≤ (i 0).val ∧ (i 0).val < (2 * (i 0).val + 1) / 2 * 1 + 1; omega
  | ⟨1, _⟩ => show win0_3.index _ 1 * 16 ≤ (i 1).val ∧ (i 1).val < win0_3.index _ 1 * 16 + 16
              rw [e1]; omega
  | ⟨2, _⟩ => show win0_3.index _ 2 * 128 ≤ (i 2).val ∧ (i 2).val < win0_3.index _ 2 * 128 + 128
              rw [e2]; omega

/-- The result array after the run. -/
theorem final (c : Dev nD) :
    (dats m 0 c).arrAt 3 cfg0.N = pooled (V m c main_arg0) (V m c main_arg1) (V m c main_arg2) :=
  (dats m 0 c).arrAt_eq_of_cover 3 _ (flushed_eq m c) cover

/-- The kernel's run: the result array at the pooled function of the arguments, the arguments unchanged. -/
theorem run : θ_run defs (onTc (τ := τ) (main (F := F))) ⟨m, fun _ => 0, ρ⟩ fun r => ∀ c : Dev nD,
      r.2.mem ((c : Thread nD τ).loc main_v0)
        = pooled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.PoolRun

end
-- ==== Proof.Spec.lean ====
/-
  The two values to be compared, written over the three argument arrays read as extended reals.

  For a batch row b, a query l and a token k the score is  S(b,l,k) = ∑_d wA[b,l,d] · X[b,k,d]  and
  the projected value  P(b,k,c) = ∑_d X[b,k,d] · wV[b,d,c].

  The reference is the softmax of the scores over all 16384 tokens, contracted with P:
  T(b,l,c) = ∑_k (exp (S k - M) / (0 + ∑_k' exp (S k' - M))) · P(k,c),  M the row maximum.

  The kernel walks the token axis in two halves of 8192 with a running maximum m, a running
  denominator and a running numerator, each rescaled by  exp (m_old - m_new)  when the maximum
  moves, and divides at the end.
-/
import Mathlib
import Idealize.ShloMosaic.PureOps.Ideal
import Idealize.ShloMosaic.Lib.ValueIdx

noncomputable section

namespace Cert.Pool

open Idealize.ShloMosaic

abbrev ArrX : Type := (⟨3, ![32, 16384, 256]⟩ : Shape).Idx → EReal
abbrev ArrA : Type := (⟨3, ![32, 16, 256]⟩ : Shape).Idx → EReal
abbrev ArrW : Type := (⟨3, ![32, 256, 128]⟩ : Shape).Idx → EReal

/-- The score of token k for query l of batch row b. -/
def score (X : ArrX) (A : ArrA) (b : Fin 32) (l : Fin 16) (k : Fin 16384) : EReal :=
  ∑ d : Fin 256, A (ValueIdx.ix3 b l d) * X (ValueIdx.ix3 b k d)

/-- The projected value of token k at channel c. -/
def proj (X : ArrX) (W : ArrW) (b : Fin 32) (k : Fin 16384) (c : Fin 128) : EReal :=
  ∑ d : Fin 256, X (ValueIdx.ix3 b k d) * W (ValueIdx.ix3 b d c)

/-- The row maximum the reference subtracts. -/
def rowMax (X : ArrX) (A : ArrA) (b : Fin 32) (l : Fin 16) : EReal :=
  max (Ideal.ofBits .f32 0xFF800000#32)
    (Finset.univ.fold max (Ideal.ofBits .f32 0xFF800000#32) (fun k : Fin 16384 => score X A b l k))

/-- The reference's value. -/
def refVal (X : ArrX) (A : ArrA) (W : ArrW) (b : Fin 32) (l : Fin 16) (c : Fin 128) : EReal :=
  ∑ k : Fin 16384,
    Ideal.div (Ideal.exp (score X A b l k - rowMax X A b l))
      (Ideal.ofBits .f32 0x00000000#32 + ∑ k' : Fin 16384, Ideal.exp (score X A b l k' - rowMax X A b l))
    * proj X W b k c

/-- Token n of the first half of the token axis, and of the second. -/
def lo (n : Fin 8192) : Fin 16384 := ⟨n.val, by omega⟩
def hi (n : Fin 8192) : Fin 16384 := ⟨8192 + n.val, by omega⟩

/-- The running maximum after the first half. -/
def max0 (X : ArrX) (A : ArrA) (b : Fin 32) (l : Fin 16) : EReal :=
  max (Ideal.ofBits .f32 0xFF800000#32)
    (Finset.univ.fold max (Ideal.ofBits .f32 0xFF800000#32) (fun n : Fin 8192 => score X A b l (lo n)))

/-- The first correction factor (against the reset value minus infinity). -/
def corr0 (X : ArrX) (A : ArrA) (b : Fin 32) (l : Fin 16) : EReal :=
  Ideal.exp (Ideal.ofBits .f32 0xFF800000#32 - max0 X A b l)

/-- The running denominator after the first half. -/
def den0 (X : ArrX) (A : ArrA) (b : Fin 32) (l : Fin 16) : EReal :=
  corr0 X A b l * Ideal.ofBits .f32 0x00000000#32 + ∑ n : Fin 8192, Ideal.exp (score X A b l (lo n) - max0 X A b l)

/-- The running numerator after the first half. -/
def num0 (X : ArrX) (A : ArrA) (W : ArrW) (b : Fin 32) (l : Fin 16) (c : Fin 128) : EReal :=
  corr0 X A b l * Ideal.ofBits .f32 0x00000000#32
    + ∑ n : Fin 8192, Ideal.exp (score X A b l (lo n) - max0 X A b l) * proj X W b (lo n) c

/-- The running maximum after the second half. -/
def max1 (X : ArrX) (A : ArrA) (b : Fin 32) (l : Fin 16) : EReal :=
  max (max0 X A b l)
    (Finset.univ.fold max (Ideal.ofBits .f32 0xFF800000#32) (fun n : Fin 8192 => score X A b l (hi n)))

/-- The second correction factor. -/
def corr1 (X : ArrX) (A : ArrA) (b : Fin 32) (l : Fin 16) : EReal :=
  Ideal.exp (max0 X A b l - max1 X A b l)

def den1 (X : ArrX) (A : ArrA) (b : Fin 32) (l : Fin 16) : EReal :=
  corr1 X A b l * den0 X A b l + ∑ n : Fin 8192, Ideal.exp (score X A b l (hi n) - max1 X A b l)

def num1 (X : ArrX) (A : ArrA) (W : ArrW) (b : Fin 32) (l : Fin 16) (c : Fin 128) : EReal :=
  corr1 X A b l * num0 X A W b l c
    + ∑ n : Fin 8192, Ideal.exp (score X A b l (hi n) - max1 X A b l) * proj X W b (hi n) c

/-- The kernel's value. -/
def kerVal (X : ArrX) (A : ArrA) (W : ArrW) (b : Fin 32) (l : Fin 16) (c : Fin 128) : EReal :=
  Ideal.div (num1 X A W b l c) (den1 X A b l)

end Cert.Pool

end
-- ==== Proof.KernelAt.lean ====
/-
  The kernel's result, read at an index.

  The body's arithmetic at the extended reals, payload by payload at explicit coordinates: the score
  tile is a matrix product of the query weights with the staged tokens; the running maximum is the
  larger of the old one and the fold of max over the tile's columns; the correction factor and the
  shifted exponentials are exponentials of differences; the running denominator is the corrected old
  one plus the row sum; the running numerator the corrected old one plus the product of the shifted
  exponentials with the projected values (itself a matrix product); the output is numerator over
  denominator.  Read over the two halves of a batch row these are the quantities of Spec.
-/
import proofs.«111957_j37452114821261_2_alg».proof.Proof.KernelRun
import proofs.«111957_j37452114821261_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelAt

open Cert.KernelIdeal Cert.KernelIdeal.Gen Idealize.ShloMosaic Idealize.ShloMosaic.ValueIdx Cert.Pool
open Cert.KernelIdeal.PoolRun

/-! ## The three matrix products at an index -/

abbrev D1 : DotDims S16x256 S8192x256 S16x8192 := dot_S16x256_S8192x256_S16x8192_1_1_0_0_n_n
abbrev D2 : DotDims S8192x256 S256x128 S8192x128 := dot_S8192x256_S256x128_S8192x128_1_0_0_1_n_n
abbrev D3 : DotDims S16x8192 S8192x128 S16x128 := dot_S16x8192_S8192x128_S16x128_1_0_0_1_n_n

theorem D1_lhs0 (i : S16x8192.Idx) (q : D1.contr.Idx) : (D1.lhsIdx i q 0).val = (i 0).val := by
  unfold DotDims.lhsIdx
  rw [dif_neg (show ¬(0 : Fin S16x256.rank) ∈ D1.lhsBatch by decide),
    dif_pos (show (0 : Fin S16x256.rank) ∈ D1.lhsNonContracting by decide)]
  rfl
theorem D1_rhs0 (i : S16x8192.Idx) (q : D1.contr.Idx) : (D1.rhsIdx i q 0).val = (i 1).val := by
  unfold DotDims.rhsIdx
  rw [dif_neg (show ¬(0 : Fin S8192x256.rank) ∈ D1.rhsBatch by decide),
    dif_pos (show (0 : Fin S8192x256.rank) ∈ D1.rhsNonContracting by decide)]
  rfl
theorem D2_lhs0 (i : S8192x128.Idx) (q : D2.contr.Idx) : (D2.lhsIdx i q 0).val = (i 0).val := by
  unfold DotDims.lhsIdx
  rw [dif_neg (show ¬(0 : Fin S8192x256.rank) ∈ D2.lhsBatch by decide),
    dif_pos (show (0 : Fin S8192x256.rank) ∈ D2.lhsNonContracting by decide)]
  rfl
theorem D2_rhs1 (i : S8192x128.Idx) (q : D2.contr.Idx) : (D2.rhsIdx i q 1).val = (i 1).val := by
  unfold DotDims.rhsIdx
  rw [dif_neg (show ¬(1 : Fin S256x128.rank) ∈ D2.rhsBatch by decide),
    dif_pos (show (1 : Fin S256x128.rank) ∈ D2.rhsNonContracting by decide)]
  rfl
theorem D3_lhs0 (i : S16x128.Idx) (q : D3.contr.Idx) : (D3.lhsIdx i q 0).val = (i 0).val := by
  unfold DotDims.lhsIdx
  rw [dif_neg (show ¬(0 : Fin S16x8192.rank) ∈ D3.lhsBatch by decide),
    dif_pos (show (0 : Fin S16x8192.rank) ∈ D3.lhsNonContracting by decide)]
  rfl
theorem D3_rhs1 (i : S16x128.Idx) (q : D3.contr.Idx) : (D3.rhsIdx i q 1).val = (i 1).val := by
  unfold DotDims.rhsIdx
  rw [dif_neg (show ¬(1 : Fin S8192x128.rank) ∈ D3.rhsBatch by decide),
    dif_pos (show (1 : Fin S8192x128.rank) ∈ D3.rhsNonContracting by decide)]
  rfl

/-- Query rows times token rows, both contracted over their second axis. -/
theorem mm1 (lhs : FVec Ideal S16x256 .bf16) (rhs : FVec Ideal S8192x256 .bf16) (l : Fin 16) (n : Fin 8192) :
    matmul D1 none lhs rhs (constant (F := Ideal) S16x8192 .f32 0x00000000#32) (ix2 l n)
      = ∑ d : Fin 256, lhs (ix2 l d) * rhs (ix2 n d) := by
  show FloatOps.matmul D1 none lhs rhs (constant (F := Ideal) S16x8192 .f32 0x00000000#32) (ix2 l n) = _
  rw [Ideal.matmul_constant_zero_apply, ← Equiv.sum_comp (contrEquiv1 D1 256 rfl rfl).symm]
  refine Finset.sum_congr rfl fun d _ => ?_
  have hk := contrEquiv1_symm_val D1 256 rfl rfl d
  have el : D1.lhsIdx (ix2 l n) ((contrEquiv1 D1 256 rfl rfl).symm d) = ix2 l d := funext fun a => Fin.ext (by
    match a with
    | ⟨0, _⟩ => exact D1_lhs0 _ _
    | ⟨1, _⟩ => exact (D1.lhsIdx_val_of_single rfl _ _).trans hk)
  have er : D1.rhsIdx (ix2 l n) ((contrEquiv1 D1 256 rfl rfl).symm d) = ix2 n d := funext fun a => Fin.ext (by
    match a with
    | ⟨0, _⟩ => exact D1_rhs0 _ _
    | ⟨1, _⟩ => exact (D1.rhsIdx_val_of_single rfl _ _).trans hk)
  rw [el, er]

/-- Tokens times value weights. -/
theorem mm2 (lhs : FVec Ideal S8192x256 .bf16) (rhs : FVec Ideal S256x128 .bf16) (n : Fin 8192) (c : Fin 128) :
    matmul D2 none lhs rhs (constant (F := Ideal) S8192x128 .f32 0x00000000#32) (ix2 n c)
      = ∑ d : Fin 256, lhs (ix2 n d) * rhs (ix2 d c) := by
  show FloatOps.matmul D2 none lhs rhs (constant (F := Ideal) S8192x128 .f32 0x00000000#32) (ix2 n c) = _
  rw [Ideal.matmul_constant_zero_apply, ← Equiv.sum_comp (contrEquiv1 D2 256 rfl rfl).symm]
  refine Finset.sum_congr rfl fun d _ => ?_
  have hk := contrEquiv1_symm_val D2 256 rfl rfl d
  have el : D2.lhsIdx (ix2 n c) ((contrEquiv1 D2 256 rfl rfl).symm d) = ix2 n d := funext fun a => Fin.ext (by
    match a with
    | ⟨0, _⟩ => exact D2_lhs0 _ _
    | ⟨1, _⟩ => exact (D2.lhsIdx_val_of_single rfl _ _).trans hk)
  have er : D2.rhsIdx (ix2 n c) ((contrEquiv1 D2 256 rfl rfl).symm d) = ix2 d c := funext fun a => Fin.ext (by
    match a with
    | ⟨0, _⟩ => exact (D2.rhsIdx_val_of_single rfl _ _).trans hk
    | ⟨1, _⟩ => exact D2_rhs1 _ _)
  rw [el, er]

/-- Weights times projected values, contracted over the tile's tokens. -/
theorem mm3 (lhs : FVec Ideal S16x8192 .bf16) (rhs : FVec Ideal S8192x128 .bf16) (l : Fin 16) (c : Fin 128) :
    matmul D3 none lhs rhs (constant (F := Ideal) S16x128 .f32 0x00000000#32) (ix2 l c)
      = ∑ n : Fin 8192, lhs (ix2 l n) * rhs (ix2 n c) := by
  show FloatOps.matmul D3 none lhs rhs (constant (F := Ideal) S16x128 .f32 0x00000000#32) (ix2 l c) = _
  rw [Ideal.matmul_constant_zero_apply, ← Equiv.sum_comp (contrEquiv1 D3 8192 rfl rfl).symm]
  refine Finset.sum_congr rfl fun n _ => ?_
  have hk := contrEquiv1_symm_val D3 8192 rfl rfl n
  have el : D3.lhsIdx (ix2 l c) ((contrEquiv1 D3 8192 rfl rfl).symm n) = ix2 l n := funext fun a => Fin.ext (by
    match a with
    | ⟨0, _⟩ => exact D3_lhs0 _ _
    | ⟨1, _⟩ => exact (D3.lhsIdx_val_of_single rfl _ _).trans hk)
  have er : D3.rhsIdx (ix2 l c) ((contrEquiv1 D3 8192 rfl rfl).symm n) = ix2 n c := funext fun a => Fin.ext (by
    match a with
    | ⟨0, _⟩ => exact (D3.rhsIdx_val_of_single rfl _ _).trans hk
    | ⟨1, _⟩ => exact D3_rhs1 _ _)
  rw [el, er]

/-! ## A column vector: cast from a plain vector, broadcast along rows -/

theorem cast_col {α : Type} (v : S16.Idx → α) (h : S16.ShapeCasts S16x1) (l : Fin 16) (z : Fin 1) :
    shapeCast S16x1 v h (ix2 l z) = v (ix1 l) :=
  shapeCast_apply v h _ _ (by
    rw [Shape.rowMajor_val_one, Shape.rowMajor_val_two]
    show l.val = l.val * 1 + z.val
    omega)

theorem bcast_col {α : Type} {w : Nat} (v : S16x1.Idx → α) (h : S16x1.Broadcasts ⟨2, ![16, w]⟩) (l : Fin 16) (n : Fin w) :
    broadcastTo ⟨2, ![16, w]⟩ v h (ix2 l n) = v (ix2 l (0 : Fin 1)) :=
  broadcastTo_apply v h (ix2 l n) (ix2 l (0 : Fin 1)) fun a => by
    match a with
    | ⟨0, _⟩ => show l.val = if (16 : Nat) = 1 then 0 else l.val; rw [if_neg (by decide)]
    | ⟨1, _⟩ => show 0 = if (1 : Nat) = 1 then 0 else n.val; rw [if_pos rfl]

/-! ## The payloads at an index -/

theorem pay6_at (x : Vec Ideal S1x8192x256 .f32) (n : Fin 8192) (d : Fin 256) :
    k0_pay6 x (ix2 n d) = x (ix3 (0 : Fin 1) n d) := by
  unfold k0_pay6
  exact shapeCast_1ab_ab_apply x _ n d

theorem pay13_at (w : Vec Ideal S1x256x128 .f32) (d : Fin 256) (c : Fin 128) :
    k0_pay13 w (ix2 d c) = w (ix3 (0 : Fin 1) d c) := by
  unfold k0_pay13
  exact shapeCast_1ab_ab_apply w _ d c

/-- The score tile. -/
theorem pay7_at (x : Vec Ideal S1x8192x256 .f32) (a : Vec Ideal S1x16x256 .f32) (l : Fin 16) (n : Fin 8192) :
    k0_pay7 x a (ix2 l n) = ∑ d : Fin 256, a (ix3 (0 : Fin 1) l d) * x (ix3 (0 : Fin 1) n d) := by
  unfold k0_pay7
  refine (mm1 _ _ l n).trans ?_
  exact Finset.sum_congr rfl fun d _ => congrArg₂ (· * ·) (shapeCast_1ab_ab_apply a _ l d) (pay6_at x n d)

/-- The running maximum. -/
theorem pay8_at (x : Vec Ideal S1x8192x256 .f32) (a : Vec Ideal S1x16x256 .f32) (v : Vec Ideal S16x1 .f32) (l : Fin 16) :
    k0_pay8 x a v (ix2 l (0 : Fin 1))
      = max (v (ix2 l (0 : Fin 1)))
          (Finset.univ.fold max (Ideal.ofBits .f32 0xFF800000#32) (fun n : Fin 8192 => k0_pay7 x a (ix2 l n))) := by
  unfold k0_pay8
  refine congrArg (max (v (ix2 l (0 : Fin 1)))) ?_
  refine (cast_col _ _ l 0).trans ?_
  refine (Ideal.multiReduction_maximumf_single (k0_pay7 x a) 0xFF800000#32 reduces_S16x8192_S16 (.inl rfl) rfl (ix1 l)).trans ?_
  refine congrArg (Finset.univ.fold max (Ideal.ofBits .f32 0xFF800000#32)) (funext fun n => ?_)
  exact congrArg (k0_pay7 x a) (funext fun a => Fin.ext (by match a with | ⟨0, _⟩ => rfl | ⟨1, _⟩ => rfl))

theorem pay12_eq (x : Vec Ideal S1x8192x256 .f32) (a : Vec Ideal S1x16x256 .f32) (v : Vec Ideal S16x1 .f32) :
    k0_pay12 x a v = k0_pay8 x a v := by
  unfold k0_pay12
  exact shapeCast_self _ _

/-- The correction factor. -/
theorem pay9_at (x : Vec Ideal S1x8192x256 .f32) (a : Vec Ideal S1x16x256 .f32) (v : Vec Ideal S16x1 .f32) (l : Fin 16) :
    k0_pay9 x a v (ix2 l (0 : Fin 1))
      = Ideal.exp (v (ix2 l (0 : Fin 1)) - k0_pay8 x a v (ix2 l (0 : Fin 1))) := rfl

/-- The shifted exponentials. -/
theorem pay10_at (x : Vec Ideal S1x8192x256 .f32) (a : Vec Ideal S1x16x256 .f32) (v : Vec Ideal S16x1 .f32) (l : Fin 16)
    (n : Fin 8192) :
    k0_pay10 x a v (ix2 l n) = Ideal.exp (k0_pay7 x a (ix2 l n) - k0_pay8 x a v (ix2 l (0 : Fin 1))) := by
  unfold k0_pay10
  exact congrArg (fun y => Ideal.exp (k0_pay7 x a (ix2 l n) - y)) (bcast_col (k0_pay8 x a v) _ l n)

/-- The running denominator. -/
theorem pay11_at (x : Vec Ideal S1x8192x256 .f32) (a : Vec Ideal S1x16x256 .f32) (v u : Vec Ideal S16x1 .f32) (l : Fin 16) :
    k0_pay11 x a v u (ix2 l (0 : Fin 1))
      = k0_pay9 x a v (ix2 l (0 : Fin 1)) * u (ix2 l (0 : Fin 1)) + ∑ n : Fin 8192, k0_pay10 x a v (ix2 l n) := by
  unfold k0_pay11
  dsimp only
  rw [shapeCast_self]
  refine congrArg (k0_pay9 x a v (ix2 l (0 : Fin 1)) * u (ix2 l (0 : Fin 1)) + ·) ?_
  refine (cast_col _ _ l 0).trans ?_
  refine (Ideal.multiReduction_add_single (k0_pay10 x a v) 0x00000000#32 reduces_S16x8192_S16 (.inl rfl) rfl (ix1 l)).trans ?_
  exact Finset.sum_congr rfl fun n _ =>
    congrArg (k0_pay10 x a v) (funext fun a => Fin.ext (by match a with | ⟨0, _⟩ => rfl | ⟨1, _⟩ => rfl))

/-- The running numerator. -/
theorem pay1_at (v5 : FVec Ideal S8192x256 .bf16) (v15 : FVec Ideal S16x1 .f32) (v18 : FVec Ideal S16x8192 .f32)
    (v32 : FVec Ideal S256x128 .bf16) (v37 : Vec Ideal S16x128 .f32) (l : Fin 16) (c : Fin 128) :
    k0_pay1 v5 v15 v18 v32 v37 (ix2 l c)
      = v15 (ix2 l (0 : Fin 1)) * v37 (ix2 l c)
        + ∑ n : Fin 8192, v18 (ix2 l n) * ∑ d : Fin 256, v5 (ix2 n d) * v32 (ix2 d c) := by
  unfold k0_pay1
  rw [shapeCast_self]
  refine congrArg₂ (· + ·) (congrArg (· * v37 (ix2 l c)) (bcast_col v15 _ l c)) ?_
  refine (mm3 _ _ l c).trans ?_
  exact Finset.sum_congr rfl fun n _ => congrArg (v18 (ix2 l n) * ·) (mm2 v5 v32 n c)

/-- The output tile. -/
theorem pay2_at (v47 : Vec Ideal S16x128 .f32) (v48 : Vec Ideal S16x1 .f32) (u : Fin 1) (l : Fin 16) (c : Fin 128) :
    k0_pay2 v47 v48 (ix3 u l c) = Ideal.div (v47 (ix2 l c)) (v48 (ix2 l (0 : Fin 1))) := by
  unfold k0_pay2
  refine (shapeCast_ab_1ab_apply _ _ u l c).trans ?_
  exact congrArg (Ideal.div (v47 (ix2 l c))) (bcast_col v48 _ l c)

theorem pay3_at (l : Fin 16) : k0_pay3 (F := Ideal) (ix2 l (0 : Fin 1)) = Ideal.ofBits .f32 0xFF800000#32 := by
  unfold k0_pay3; rw [shapeCast_self]; rfl
theorem pay4_at (l : Fin 16) : k0_pay4 (F := Ideal) (ix2 l (0 : Fin 1)) = Ideal.ofBits .f32 0x00000000#32 := by
  unfold k0_pay4; rw [shapeCast_self]; rfl
theorem pay5_at (l : Fin 16) (c : Fin 128) : k0_pay5 (F := Ideal) (ix2 l c) = Ideal.ofBits .f32 0x00000000#32 := by
  unfold k0_pay5; rw [shapeCast_self]; rfl

/-! ## One half of a batch row -/

section Half

variable (X : ArrX) (A : ArrA) (W : ArrW) (b : Fin 32)

/-- The staged blocks of half h, read at coordinates, are the arrays at the half's tokens. -/
theorem xblk_lo (n : Fin 8192) (d : Fin 256) : xblk (F := Ideal) X b 0 (ix3 (0 : Fin 1) n d) = X (ix3 b (lo n) d) :=
  congrArg X (funext fun a => Fin.ext (by
    match a with
    | ⟨0, _⟩ => rfl
    | ⟨1, _⟩ => show 0 * 8192 + n.val = n.val; omega
    | ⟨2, _⟩ => rfl))
theorem xblk_hi (n : Fin 8192) (d : Fin 256) : xblk (F := Ideal) X b 1 (ix3 (0 : Fin 1) n d) = X (ix3 b (hi n) d) :=
  congrArg X (funext fun a => Fin.ext (by
    match a with
    | ⟨0, _⟩ => rfl
    | ⟨1, _⟩ => show 1 * 8192 + n.val = 8192 + n.val; omega
    | ⟨2, _⟩ => rfl))
theorem ablk_at (l : Fin 16) (d : Fin 256) : ablk (F := Ideal) A b (ix3 (0 : Fin 1) l d) = A (ix3 b l d) := rfl
theorem wblk_at (d : Fin 256) (c : Fin 128) : wblk (F := Ideal) W b (ix3 (0 : Fin 1) d c) = W (ix3 b d c) := rfl

variable (xb : Vec Ideal S1x8192x256 .f32) (tok : Fin 8192 → Fin 16384)
  (hxb : ∀ (n : Fin 8192) (d : Fin 256), xb (ix3 (0 : Fin 1) n d) = X (ix3 b (tok n) d))

include hxb

/-- The score tile of a half is the scores of its tokens. -/
theorem score_half (l : Fin 16) (n : Fin 8192) :
    k0_pay7 xb (ablk (F := Ideal) A b) (ix2 l n) = score X A b l (tok n) := by
  rw [pay7_at]; unfold score
  exact Finset.sum_congr rfl fun d _ => congrArg₂ (· * ·) (ablk_at A b l d) (hxb n d)

/-- The projected values of a half. -/
theorem proj_half (n : Fin 8192) (c : Fin 128) :
    (∑ d : Fin 256, k0_pay6 xb (ix2 n d) * k0_pay13 (wblk (F := Ideal) W b) (ix2 d c)) = proj X W b (tok n) c := by
  unfold proj
  exact Finset.sum_congr rfl fun d _ => by rw [pay6_at, pay13_at, hxb, wblk_at]

/-- The running maximum after a half, over the one before (v). -/
theorem max_half (v : Vec Ideal S16x1 .f32) (l : Fin 16) :
    k0_pay8 xb (ablk (F := Ideal) A b) v (ix2 l (0 : Fin 1))
      = max (v (ix2 l (0 : Fin 1)))
          (Finset.univ.fold max (Ideal.ofBits .f32 0xFF800000#32) (fun n : Fin 8192 => score X A b l (tok n))) := by
  rw [pay8_at]
  refine congrArg (max (v (ix2 l (0 : Fin 1)))) ?_
  exact congrArg (Finset.univ.fold max (Ideal.ofBits .f32 0xFF800000#32)) (funext fun n => score_half X A b xb tok hxb l n)

/-- The running denominator after a half, over the maximum (v) and denominator (u) before. -/
theorem den_half (v u : Vec Ideal S16x1 .f32) (l : Fin 16) :
    k0_pay11 xb (ablk (F := Ideal) A b) v u (ix2 l (0 : Fin 1))
      = Ideal.exp (v (ix2 l (0 : Fin 1)) - k0_pay8 xb (ablk (F := Ideal) A b) v (ix2 l (0 : Fin 1))) * u (ix2 l (0 : Fin 1))
        + ∑ n : Fin 8192, Ideal.exp (score X A b l (tok n) - k0_pay8 xb (ablk (F := Ideal) A b) v (ix2 l (0 : Fin 1))) := by
  rw [pay11_at, pay9_at]
  refine congrArg₂ (fun p q : EReal => p + q) rfl ?_
  exact Finset.sum_congr rfl fun n _ => by rw [pay10_at, score_half X A b xb tok hxb l n]

/-- The running numerator after a half, over the maximum (v) and numerator (acc) before. -/
theorem num_half (v : Vec Ideal S16x1 .f32) (acc : Vec Ideal S16x128 .f32) (l : Fin 16) (c : Fin 128) :
    k0_pay1 (k0_pay6 xb) (k0_pay9 xb (ablk (F := Ideal) A b) v) (k0_pay10 xb (ablk (F := Ideal) A b) v)
        (k0_pay13 (wblk (F := Ideal) W b)) acc (ix2 l c)
      = Ideal.exp (v (ix2 l (0 : Fin 1)) - k0_pay8 xb (ablk (F := Ideal) A b) v (ix2 l (0 : Fin 1))) * acc (ix2 l c)
        + ∑ n : Fin 8192, Ideal.exp (score X A b l (tok n) - k0_pay8 xb (ablk (F := Ideal) A b) v (ix2 l (0 : Fin 1)))
            * proj X W b (tok n) c := by
  rw [pay1_at, pay9_at]
  refine congrArg₂ (fun p q : EReal => p + q) rfl ?_
  exact Finset.sum_congr rfl fun n _ => by
    rw [pay10_at, score_half X A b xb tok hxb l n, proj_half X W b xb tok hxb n c]

end Half

/-! ## The result at (b, l, c) -/

/-- The kernel's result at an index is the two-pass value of Spec. -/
theorem kernel_at (X : ArrX) (A : ArrA) (W : ArrW) (i : S32x16x128.Idx) :
    pooled (F := Ideal) X A W i
      = kerVal X A W ⟨(i 0).val, (i 0).isLt⟩ ⟨(i 1).val, (i 1).isLt⟩ ⟨(i 2).val, (i 2).isLt⟩ := by
  unfold pooled tile
  generalize (⟨(i 0).val, (i 0).isLt⟩ : Fin 32) = b
  generalize (⟨(i 1).val, (i 1).isLt⟩ : Fin 16) = l
  generalize (⟨(i 2).val, (i 2).isLt⟩ : Fin 128) = c
  -- the first half, from the reset values
  have hM0 : k0_pay12 (xblk (F := Ideal) X b 0) (ablk (F := Ideal) A b) (k0_pay3 (F := Ideal)) (ix2 l (0 : Fin 1)) = max0 X A b l := by
    rw [pay12_eq, max_half X A b _ lo (xblk_lo X b), pay3_at]; rfl
  have hK0 : k0_pay8 (xblk (F := Ideal) X b 0) (ablk (F := Ideal) A b) (k0_pay3 (F := Ideal)) (ix2 l (0 : Fin 1)) = max0 X A b l := by
    rw [← pay12_eq]; exact hM0
  have hL0 : k0_pay11 (xblk (F := Ideal) X b 0) (ablk (F := Ideal) A b) (k0_pay3 (F := Ideal)) (k0_pay4 (F := Ideal)) (ix2 l (0 : Fin 1)) = den0 X A b l := by
    rw [den_half X A b _ lo (xblk_lo X b), hK0, pay3_at, pay4_at]; rfl
  have hN0 : k0_pay1 (k0_pay6 (xblk (F := Ideal) X b 0)) (k0_pay9 (xblk (F := Ideal) X b 0) (ablk (F := Ideal) A b) (k0_pay3 (F := Ideal)))
      (k0_pay10 (xblk (F := Ideal) X b 0) (ablk (F := Ideal) A b) (k0_pay3 (F := Ideal))) (k0_pay13 (wblk (F := Ideal) W b)) (k0_pay5 (F := Ideal)) (ix2 l c)
      = num0 X A W b l c := by
    rw [num_half X A W b _ lo (xblk_lo X b), hK0, pay3_at, pay5_at]; rfl
  -- the second half, over what the first left
  have hK1 : k0_pay8 (xblk (F := Ideal) X b 1) (ablk (F := Ideal) A b)
      (k0_pay12 (xblk (F := Ideal) X b 0) (ablk (F := Ideal) A b) (k0_pay3 (F := Ideal))) (ix2 l (0 : Fin 1)) = max1 X A b l := by
    rw [max_half X A b _ hi (xblk_hi X b), hM0]; rfl
  refine (pay2_at _ _ 0 l c).trans ?_
  unfold kerVal
  refine congrArg₂ Ideal.div ?_ ?_
  · rw [num_half X A W b _ hi (xblk_hi X b), hK1, hM0, hN0]; rfl
  · rw [den_half X A b _ hi (xblk_hi X b), hK1, hM0, hL0]; rfl

end Cert.KernelIdeal.KernelAt

end
-- ==== Proof.RefAt.lean ====
/-
  The reference, read at an index.

  Its seventeen host operations, one after the other at an output index (b, l, c): the score matrix,
  its row maximum (a fold of max from minus infinity over the token axis, then the maximum with a
  minus infinity splat), the shifted exponentials, their row sum from zero, the quotient, the projected
  values and the final contraction over the tokens.  Each stage is read through the generated
  read-at-an-index lemmas; the row maximum, which they leave unread, is the fold of max over the
  token axis.  The outcome is the reference value of Spec.
-/
import proofs.«111957_j37452114821261_2_alg».proof.Proof.Spec
import proofs.«111957_j37452114821261_2_alg».proof.Proof.Gen.ReferenceIdeal.Read
import Idealize.ShloMosaic.PureOps.Ideal.Laws
import Idealize.ShloMosaic.PureOps.Reduce

noncomputable section

namespace Cert.ReferenceIdeal.RefAt

open Cert.ReferenceIdeal Cert.ReferenceIdeal.Gen Cert.ReferenceIdeal.Read Idealize.ShloMosaic Cert.Pool

variable (X : ArrX) (A : ArrA) (W : ArrW)

theorem score_congr {b b' : Fin 32} {l l' : Fin 16} {k k' : Fin 16384} (hb : b = b') (hl : l = l') (hk : k = k') :
    score X A b l k = score X A b' l' k' := by subst hb hl hk; rfl

theorem proj_congr {b b' : Fin 32} {k k' : Fin 16384} {c c' : Fin 128} (hb : b = b') (hk : k = k') (hc : c = c') :
    proj X W b k c = proj X W b' k' c' := by subst hb hk hc; rfl

/-- The score matrix at (b, l, k). -/
theorem v0_at (j : S32x16x16384.Idx) :
    val_main_v0 (F := Ideal) X A j
      = score X A ⟨(j 0).val, (j 0).isLt⟩ ⟨(j 1).val, (j 1).isLt⟩ ⟨(j 2).val, (j 2).isLt⟩ := by
  rw [val_main_v0_apply]; unfold score
  refine Finset.sum_congr rfl fun d _ => ?_
  have e1 : lidx_main_v0 j d = ValueIdx.ix3 (⟨(j 0).val, (j 0).isLt⟩ : Fin 32) (⟨(j 1).val, (j 1).isLt⟩ : Fin 16) d :=
    funext fun a => Fin.ext (by match a with | ⟨0, _⟩ => rfl | ⟨1, _⟩ => rfl | ⟨2, _⟩ => rfl)
  have e2 : ridx_main_v0 j d = ValueIdx.ix3 (⟨(j 0).val, (j 0).isLt⟩ : Fin 32) (⟨(j 2).val, (j 2).isLt⟩ : Fin 16384) d :=
    funext fun a => Fin.ext (by match a with | ⟨0, _⟩ => rfl | ⟨1, _⟩ => rfl | ⟨2, _⟩ => rfl)
  rw [e1, e2]

/-- The projected values at (b, k, c). -/
theorem v12_at (j : S32x16384x128.Idx) :
    val_main_v12 (F := Ideal) X W j
      = proj X W ⟨(j 0).val, (j 0).isLt⟩ ⟨(j 1).val, (j 1).isLt⟩ ⟨(j 2).val, (j 2).isLt⟩ := by
  rw [val_main_v12_apply]; unfold proj
  refine Finset.sum_congr rfl fun d _ => ?_
  have e1 : lidx_main_v12 j d = ValueIdx.ix3 (⟨(j 0).val, (j 0).isLt⟩ : Fin 32) (⟨(j 1).val, (j 1).isLt⟩ : Fin 16384) d :=
    funext fun a => Fin.ext (by match a with | ⟨0, _⟩ => rfl | ⟨1, _⟩ => rfl | ⟨2, _⟩ => rfl)
  have e2 : ridx_main_v12 j d = ValueIdx.ix3 (⟨(j 0).val, (j 0).isLt⟩ : Fin 32) d (⟨(j 2).val, (j 2).isLt⟩ : Fin 128) :=
    funext fun a => Fin.ext (by match a with | ⟨0, _⟩ => rfl | ⟨1, _⟩ => rfl | ⟨2, _⟩ => rfl)
  rw [e1, e2]

/-- The reduce by max over the token axis, from minus infinity, as a fold over the tokens. -/
theorem v1_at (J : S32x16.Idx) :
    val_main_v1 (F := Ideal) X A J
      = Finset.univ.fold max (Ideal.ofBits .f32 0xFF800000#32)
          (fun k : Fin 16384 => score X A ⟨(J 0).val, (J 0).isLt⟩ ⟨(J 1).val, (J 1).isLt⟩ k) := by
  unfold val_main_v1
  have hR : S32x16x16384.Reduces [2] S32x16 := by decide
  rw [Host.reduce_eq_fold_single FloatOps.maximumf _ _ reducesTo_S32x16x16384_S32x16_d2 hR h_S_ J]
  show Finset.univ.fold max (Ideal.ofBits .f32 0xFF800000#32) _ = _
  refine congrArg (Finset.univ.fold max (Ideal.ofBits .f32 0xFF800000#32)) (funext fun k => ?_)
  show val_main_v0 (F := Ideal) X A (hR.lift J k) = _
  rw [v0_at]
  exact score_congr X A (Fin.ext rfl) (Fin.ext rfl) (Fin.ext rfl)

/-- The row maximum. -/
theorem v3_at (J : S32x16.Idx) :
    val_main_v3 (F := Ideal) X A J = rowMax X A ⟨(J 0).val, (J 0).isLt⟩ ⟨(J 1).val, (J 1).isLt⟩ := by
  rw [val_main_v3_apply, val_main_v2_apply, val_main_cst_0_apply, v1_at]
  rfl

/-- The row maximum broadcast along the tokens. -/
theorem v5_at (j : S32x16x16384.Idx) :
    val_main_v5 (F := Ideal) X A j = rowMax X A ⟨(j 0).val, (j 0).isLt⟩ ⟨(j 1).val, (j 1).isLt⟩ := by
  rw [val_main_v5_apply, val_main_v4_apply, v3_at]

/-- The shifted exponentials. -/
theorem v7_at (j : S32x16x16384.Idx) :
    val_main_v7 (F := Ideal) X A j
      = Ideal.exp (score X A ⟨(j 0).val, (j 0).isLt⟩ ⟨(j 1).val, (j 1).isLt⟩ ⟨(j 2).val, (j 2).isLt⟩
          - rowMax X A ⟨(j 0).val, (j 0).isLt⟩ ⟨(j 1).val, (j 1).isLt⟩) := by
  rw [val_main_v7_apply, val_main_v6_apply, v0_at, v5_at]
  rfl

/-- Their row sums, from zero. -/
theorem v8_at (J : S32x16.Idx) :
    val_main_v8 (F := Ideal) X A J
      = Ideal.ofBits .f32 0x00000000#32 + ∑ k : Fin 16384,
          Ideal.exp (score X A ⟨(J 0).val, (J 0).isLt⟩ ⟨(J 1).val, (J 1).isLt⟩ k
            - rowMax X A ⟨(J 0).val, (J 0).isLt⟩ ⟨(J 1).val, (J 1).isLt⟩) := by
  rw [val_main_v8_apply]
  refine congrArg₂ (· + ·) rfl (Finset.sum_congr rfl fun k _ => ?_)
  rw [v7_at]

/-- The row sums broadcast along the tokens. -/
theorem v10_at (j : S32x16x16384.Idx) :
    val_main_v10 (F := Ideal) X A j
      = Ideal.ofBits .f32 0x00000000#32 + ∑ k : Fin 16384,
          Ideal.exp (score X A ⟨(j 0).val, (j 0).isLt⟩ ⟨(j 1).val, (j 1).isLt⟩ k
            - rowMax X A ⟨(j 0).val, (j 0).isLt⟩ ⟨(j 1).val, (j 1).isLt⟩) := by
  rw [val_main_v10_apply, val_main_v9_apply, v8_at]

/-- The softmax weights. -/
theorem v11_at (j : S32x16x16384.Idx) :
    val_main_v11 (F := Ideal) X A j
      = Ideal.div
          (Ideal.exp (score X A ⟨(j 0).val, (j 0).isLt⟩ ⟨(j 1).val, (j 1).isLt⟩ ⟨(j 2).val, (j 2).isLt⟩
            - rowMax X A ⟨(j 0).val, (j 0).isLt⟩ ⟨(j 1).val, (j 1).isLt⟩))
          (Ideal.ofBits .f32 0x00000000#32 + ∑ k : Fin 16384,
            Ideal.exp (score X A ⟨(j 0).val, (j 0).isLt⟩ ⟨(j 1).val, (j 1).isLt⟩ k
              - rowMax X A ⟨(j 0).val, (j 0).isLt⟩ ⟨(j 1).val, (j 1).isLt⟩)) := by
  rw [val_main_v11_apply, v7_at, v10_at]
  rfl

/-- The reference's result at (b, l, c). -/
theorem ref_at (i : S32x16x128.Idx) :
    val_main_v13 (F := Ideal) X A W i
      = refVal X A W ⟨(i 0).val, (i 0).isLt⟩ ⟨(i 1).val, (i 1).isLt⟩ ⟨(i 2).val, (i 2).isLt⟩ := by
  rw [val_main_v13_apply]; unfold refVal
  refine Finset.sum_congr rfl fun k _ => ?_
  rw [v11_at, v12_at]

end Cert.ReferenceIdeal.RefAt

end
-- ==== Proof.Finite.lean ====
/-
  What the precondition gives: every entry of the three argument arrays is a real number.

  The precondition is the conjunction of three  all(|x| < +inf)  tests.  On the extended reals
  |x| = max x (-x)  is below the top exactly when x is neither infinity, that is when x is the
  coercion of a real.
-/
import proofs.«111957_j37452114821261_2_alg».proof.Pre_finite_inputs
import Idealize.ShloMosaic.Lib.ReduceAll
import Idealize.ShloMosaic.Lib.ValueIdx
import Idealize.ShloMosaic.PureOps.Ideal.Laws

namespace Cert.Pool

open Idealize.ShloMosaic

/-- The f32 pattern of plus infinity denotes the top of the extended reals. -/
theorem ofBits_pos_inf : Ideal.ofBits .f32 0x7F800000#32 = (⊤ : EReal) := by
  simp [Ideal.ofBits, Ideal.ieee]

/-- An extended real whose absolute value compares below plus infinity is a real. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  rw [Ideal.cmpf_def, Ideal.hostAbsf_def, Ideal.absf_def, Ideal.ofBits_def, ofBits_pos_inf] at h
  have hb : ∀ b : Bool, BitVec.ofBool b = 1#1 → b = true := by intro b; cases b <;> decide
  have hlt : max x (-x) < ⊤ := by
    have h' := hb _ h
    simpa using h'
  induction x using EReal.rec with
  | bot => simp at hlt
  | top => simp at hlt
  | coe r => exact ⟨r, rfl⟩

variable [Cert.Pre_finite_inputs.Facts]

open Cert.Pre_finite_inputs Cert.Pre_finite_inputs.Facts

instance : Subsingleton S_.Idx := ⟨fun a b => funext fun d => d.elim0⟩

/-- Under the precondition the three argument arrays hold reals. -/
theorem finite_of_pre (X : FVec Ideal S32x16384x256 .f32) (A : FVec Ideal S32x16x256 .f32)
    (W : FVec Ideal S32x256x128 .f32) (h : Cert.Pre_finite_inputs.fn (F := Ideal) X A W = fun _ => 1#1) :
    (∀ i, ∃ r : ℝ, X i = r) ∧ (∀ i, ∃ r : ℝ, A i = r) ∧ (∀ i, ∃ r : ℝ, W i = r) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.Pool
-- ==== Proof.SoftmaxLaw.lean ====
/-
  The algebra behind softmax pooling computed in two passes with a running maximum, a running
  denominator and a running numerator, against the one-pass form  ∑ₖ softmax(S)ₖ · Vₖ.

  Over the reals  exp (S k - a) = exp (S k) · exp (-a),  so the quotient
  (∑ₖ exp (S k - a) · V k) / (∑ₖ exp (S k - a))  does not depend on the shift  a : neither which
  maximum was subtracted nor whether it was subtracted in one step or corrected afterwards by the
  factor  exp (m₀ - m₁)  matters, only that every shift is a real number.  The statements below are
  over the extended reals with every datum the coercion of a real, the form both programs reach
  once their inputs are finite.
-/
import Mathlib
import Idealize.ShloMosaic.PureOps.Ideal
import Idealize.ShloMosaic.PureOps.Ideal.Laws

namespace Cert.Pool

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern of negative infinity denotes the bottom of the extended reals. -/
theorem ofBits_neg_inf : Ideal.ofBits .f32 0xFF800000#32 = (⊥ : EReal) := by
  simp [Ideal.ofBits, Ideal.ieee]

/-- A running maximum started below the top, taken over a nonempty family of reals, is a real. -/
theorem fold_max_real {ι : Type*} (s : Finset ι) (hs : s.Nonempty) (f : ι → EReal)
    (hf : ∀ i ∈ s, ∃ r : ℝ, f i = r) (b : EReal) (hb : b ≠ ⊤) :
    ∃ r : ℝ, s.fold max b f = r := by
  obtain ⟨i, hi⟩ := hs
  have h1 : s.fold max b f ≠ ⊤ := by
    apply ne_of_lt
    rw [Finset.fold_max_lt]
    refine ⟨lt_top_iff_ne_top.2 hb, fun x hx => ?_⟩
    obtain ⟨r, hr⟩ := hf x hx
    rw [hr]; exact EReal.coe_lt_top r
  have h2 : s.fold max b f ≠ ⊥ := by
    apply ne_of_gt
    rw [Finset.lt_fold_max]
    right
    refine ⟨i, hi, ?_⟩
    obtain ⟨r, hr⟩ := hf i hi
    rw [hr]; exact EReal.bot_lt_coe r
  exact ⟨_, (EReal.coe_toReal h1 h2).symm⟩

/-- The larger of an extended real below the top and a real is a real. -/
theorem max_real (a : EReal) (ha : a ≠ ⊤) (r : ℝ) : ∃ q : ℝ, max a (r : EReal) = q := by
  have h1 : max a (r : EReal) ≠ ⊤ := by
    apply ne_of_lt
    exact max_lt (lt_top_iff_ne_top.2 ha) (EReal.coe_lt_top r)
  have h2 : max a (r : EReal) ≠ ⊥ := by
    apply ne_of_gt
    exact lt_max_of_lt_right (EReal.bot_lt_coe r)
  exact ⟨_, (EReal.coe_toReal h1 h2).symm⟩

/-- The pooled quotient does not depend on the shift. -/
theorem softmax_shift {ι : Type*} [Fintype ι] [Nonempty ι] (S V : ι → ℝ) (a : ℝ) :
    (∑ k, Real.exp (S k - a) * V k) * (1 / ∑ k, Real.exp (S k - a))
      = (∑ k, Real.exp (S k) * V k) * (1 / ∑ k, Real.exp (S k)) := by
  have h1 : ∀ k, Real.exp (S k - a) = Real.exp (-a) * Real.exp (S k) := by
    intro k; rw [← Real.exp_add]; congr 1; ring
  have hN : ∑ k, Real.exp (S k - a) * V k = Real.exp (-a) * ∑ k, Real.exp (S k) * V k := by
    rw [Finset.mul_sum]; exact Finset.sum_congr rfl fun k _ => by rw [h1 k]; ring
  have hZ : ∑ k, Real.exp (S k - a) = Real.exp (-a) * ∑ k, Real.exp (S k) := by
    rw [Finset.mul_sum]; exact Finset.sum_congr rfl fun k _ => h1 k
  have hpos : 0 < ∑ k, Real.exp (S k) := Finset.sum_pos (fun _ _ => Real.exp_pos _) Finset.univ_nonempty
  have he : Real.exp (-a) ≠ 0 := (Real.exp_pos _).ne'
  rw [hN, hZ]
  field_simp

/-- A sum over 16384 indices is the sum over the first 8192 plus the sum over the last 8192. -/
theorem sum_halves {α : Type*} [AddCommMonoid α] (f : Fin 16384 → α) :
    ∑ k, f k = (∑ n : Fin 8192, f ⟨n.val, by omega⟩) + ∑ n : Fin 8192, f ⟨8192 + n.val, by omega⟩ :=
  Fin.sum_univ_add (a := 8192) (b := 8192) (f := f)

/-- THE LAW.  The two-pass value — the first half's numerator and denominator taken against a
    shift m₀, rescaled by exp (m₀ - m₁) and continued over the second half against the shift
    m₁, then divided — is the one-pass  ∑ₖ (exp (S k - M) / ∑ exp (S · - M)) · V k,  for any
    real shifts m₀, m₁, M. -/
theorem pool_law (S V : Fin 16384 → ℝ) (S0 S1 V0 V1 : Fin 8192 → ℝ)
    (hS0 : ∀ n : Fin 8192, S0 n = S ⟨n.val, by omega⟩)
    (hS1 : ∀ n : Fin 8192, S1 n = S ⟨8192 + n.val, by omega⟩)
    (hV0 : ∀ n : Fin 8192, V0 n = V ⟨n.val, by omega⟩)
    (hV1 : ∀ n : Fin 8192, V1 n = V ⟨8192 + n.val, by omega⟩)
    (m0 m1 M : ℝ) :
    Ideal.div
        ((Real.exp (m0 - m1) : EReal) * (∑ n, (Real.exp (S0 n - m0) : EReal) * (V0 n : EReal))
          + ∑ n, (Real.exp (S1 n - m1) : EReal) * (V1 n : EReal))
        ((Real.exp (m0 - m1) : EReal) * (∑ n, (Real.exp (S0 n - m0) : EReal))
          + ∑ n, (Real.exp (S1 n - m1) : EReal))
      = ∑ k, Ideal.div (Real.exp (S k - M) : EReal) (∑ k', (Real.exp (S k' - M) : EReal)) * (V k : EReal) := by
  -- the shifted weights of the whole axis
  have hc : ∀ n : Fin 8192, Real.exp (m0 - m1) * Real.exp (S0 n - m0) = Real.exp (S ⟨n.val, by omega⟩ - m1) := by
    intro n; rw [← Real.exp_add, hS0]; congr 1; ring
  have hnum : Real.exp (m0 - m1) * (∑ n, Real.exp (S0 n - m0) * V0 n) + ∑ n, Real.exp (S1 n - m1) * V1 n
      = ∑ k, Real.exp (S k - m1) * V k := by
    rw [sum_halves, Finset.mul_sum]
    congr 1
    · exact Finset.sum_congr rfl fun n _ => by rw [← mul_assoc, hc n, hV0]
    · exact Finset.sum_congr rfl fun n _ => by rw [hS1, hV1]
  have hden : Real.exp (m0 - m1) * (∑ n, Real.exp (S0 n - m0)) + ∑ n, Real.exp (S1 n - m1)
      = ∑ k, Real.exp (S k - m1) := by
    rw [sum_halves, Finset.mul_sum]
    congr 1
    · exact Finset.sum_congr rfl fun n _ => hc n
    · exact Finset.sum_congr rfl fun n _ => by rw [hS1]
  have hpos : ∀ a : ℝ, (∑ k, Real.exp (S k - a)) ≠ 0 := fun a =>
    (Finset.sum_pos (fun _ _ => Real.exp_pos _) Finset.univ_nonempty).ne'
  -- both sides are coercions of reals
  have hL : ((Real.exp (m0 - m1) : EReal) * (∑ n, (Real.exp (S0 n - m0) : EReal) * (V0 n : EReal))
          + ∑ n, (Real.exp (S1 n - m1) : EReal) * (V1 n : EReal))
        = ((∑ k, Real.exp (S k - m1) * V k : ℝ) : EReal) := by
    rw [← hnum]; simp only [coe_sum, EReal.coe_add, EReal.coe_mul]
  have hD : ((Real.exp (m0 - m1) : EReal) * (∑ n, (Real.exp (S0 n - m0) : EReal))
          + ∑ n, (Real.exp (S1 n - m1) : EReal))
        = ((∑ k, Real.exp (S k - m1) : ℝ) : EReal) := by
    rw [← hden]; simp only [coe_sum, EReal.coe_add, EReal.coe_mul]
  have hR : ∀ k, Ideal.div (Real.exp (S k - M) : EReal) (∑ k', (Real.exp (S k' - M) : EReal)) * (V k : EReal)
      = ((Real.exp (S k - M) * (1 / ∑ k', Real.exp (S k' - M)) * V k : ℝ) : EReal) := by
    intro k
    rw [← coe_sum, Ideal.div_coe (hpos M), ← EReal.coe_mul, ← EReal.coe_mul]
  rw [hL, hD, Ideal.div_coe (hpos m1), ← EReal.coe_mul, Finset.sum_congr rfl fun k _ => hR k, ← coe_sum]
  refine congrArg Real.toEReal ?_
  rw [softmax_shift S V m1]
  have := softmax_shift S V M
  rw [← this, Finset.sum_mul]
  exact Finset.sum_congr rfl fun k _ => by ring

end Cert.Pool
-- ==== Proof.Bridge.lean ====
/-
  Kernel value = reference value, once every entry of the three arrays is a real number.

  With real entries every score and projected value is a real, every maximum of scores is a real,
  the reset's correction factor multiplies a zero and disappears, and what is left is the shift
  law of SoftmaxLaw: the two-pass quotient and the one-pass softmax contraction are one real number.
-/
import proofs.«111957_j37452114821261_2_alg».proof.Proof.Spec
import proofs.«111957_j37452114821261_2_alg».proof.Proof.SoftmaxLaw

namespace Cert.Pool

open Idealize.ShloMosaic

/-- The exponential of a real, read on the extended reals, is the real exponential. -/
theorem exp_coe (r : ℝ) : Ideal.exp (r : EReal) = (Real.exp r : EReal) := rfl

theorem negInf_ne_top : Ideal.ofBits .f32 0xFF800000#32 ≠ (⊤ : EReal) := by
  rw [ofBits_neg_inf]; exact bot_ne_top

theorem kerVal_eq_refVal (X : ArrX) (A : ArrA) (W : ArrW)
    (hX : ∀ i, ∃ r : ℝ, X i = r) (hA : ∀ i, ∃ r : ℝ, A i = r) (hW : ∀ i, ∃ r : ℝ, W i = r)
    (b : Fin 32) (l : Fin 16) (c : Fin 128) :
    kerVal X A W b l c = refVal X A W b l c := by
  choose x hx using hX
  choose a ha using hA
  choose w hw using hW
  -- the scores and the projected values are reals
  obtain ⟨S, hS⟩ : ∃ S : Fin 16384 → ℝ, ∀ k, score X A b l k = (S k : EReal) :=
    ⟨fun k => ∑ d : Fin 256, a (ValueIdx.ix3 b l d) * x (ValueIdx.ix3 b k d), fun k => by
      unfold score; rw [coe_sum]; exact Finset.sum_congr rfl fun d _ => by rw [ha, hx, EReal.coe_mul]⟩
  obtain ⟨V, hV⟩ : ∃ V : Fin 16384 → ℝ, ∀ k, proj X W b k c = (V k : EReal) :=
    ⟨fun k => ∑ d : Fin 256, x (ValueIdx.ix3 b k d) * w (ValueIdx.ix3 b d c), fun k => by
      unfold proj; rw [coe_sum]; exact Finset.sum_congr rfl fun d _ => by rw [hx, hw, EReal.coe_mul]⟩
  -- the three maxima are reals
  obtain ⟨r0, hr0⟩ : ∃ r : ℝ, max0 X A b l = r := by
    unfold max0
    obtain ⟨q, hq⟩ := fold_max_real Finset.univ Finset.univ_nonempty (fun n : Fin 8192 => score X A b l (lo n))
      (fun n _ => ⟨_, hS _⟩) _ negInf_ne_top
    rw [hq]; exact max_real _ negInf_ne_top q
  obtain ⟨r1, hr1⟩ : ∃ r : ℝ, max1 X A b l = r := by
    unfold max1
    obtain ⟨q, hq⟩ := fold_max_real Finset.univ Finset.univ_nonempty (fun n : Fin 8192 => score X A b l (hi n))
      (fun n _ => ⟨_, hS _⟩) _ negInf_ne_top
    rw [hq, hr0]; exact max_real _ (EReal.coe_ne_top r0) q
  obtain ⟨rM, hrM⟩ : ∃ r : ℝ, rowMax X A b l = r := by
    unfold rowMax
    obtain ⟨q, hq⟩ := fold_max_real Finset.univ Finset.univ_nonempty (fun k : Fin 16384 => score X A b l k)
      (fun n _ => ⟨_, hS _⟩) _ negInf_ne_top
    rw [hq]; exact max_real _ negInf_ne_top q
  unfold kerVal num1 den1 corr1 num0 den0 refVal
  rw [hr0, hr1, hrM]
  simp only [hS, hV, Ideal.ofBits_zero_f32, mul_zero, zero_add, ← EReal.coe_sub, exp_coe]
  exact pool_law S V (fun n => S (lo n)) (fun n => S (hi n)) (fun n => V (lo n)) (fun n => V (hi n))
    (fun _ => rfl) (fun _ => rfl) (fun _ => rfl) (fun _ => rfl) r0 r1 rM

end Cert.Pool
-- ==== Proof.lean ====
/-
  Softmax-attention pooling with learned queries: T[b,l,c] = ∑_k softmax_k(∑_d wA[b,l,d]·X[b,k,d]) · (∑_d X[b,k,d]·wV[b,d,c]).

  The kernel computes it flash-attention style: for each batch row it walks the 16384 tokens in two
  tiles of 8192, keeping a running row maximum, a running softmax denominator and a running numerator
  in scratch, rescaling the two sums by exp (m_old - m_new) whenever the maximum moves, and dividing
  numerator by denominator after the second tile.  The reference takes the softmax over the whole
  token axis at once and contracts it with the projected values.

  At the extended reals, with every input finite, all scores are reals, so every maximum is a real
  and the pooled quotient (∑_k exp (S k - a)·P k) / (∑_k exp (S k - a)) does not depend on the shift a;
  the kernel's rescaling by exp (m₀ - m₁) is exactly a change of shift.  That is the one law joining
  the two sides (SoftmaxLaw); finiteness is needed for it (on infinite scores exp (S - m) has corners).

  The modules: Pieces (what each case of the body leaves in its buffers), KernelRun (the result array
  as one function of the arguments), KernelAt (that function read at an index), RefAt (the reference
  read at an index), Spec (the two values as formulas), Finite (the precondition gives real entries),
  SoftmaxLaw and Bridge (the two formulas agree).  The three frames are the generated ones; the ideal
  pass rewrote nothing, so the kernel's idealization is its own text.
-/
import proofs.«111957_j37452114821261_2_alg».proof.Defs
import proofs.«111957_j37452114821261_2_alg».proof.Proof.Gen.Kernel
import proofs.«111957_j37452114821261_2_alg».proof.Proof.Gen.Kernel.Skeleton
import proofs.«111957_j37452114821261_2_alg».proof.Proof.Gen.Kernel.Launch
import proofs.«111957_j37452114821261_2_alg».proof.Proof.Gen.Kernel.Points
import proofs.«111957_j37452114821261_2_alg».proof.Proof.Gen.Kernel.Frame
import proofs.«111957_j37452114821261_2_alg».proof.Proof.Gen.KernelIdeal
import proofs.«111957_j37452114821261_2_alg».proof.Proof.Gen.KernelIdeal.Skeleton
import proofs.«111957_j37452114821261_2_alg».proof.Proof.Gen.KernelIdeal.Launch
import proofs.«111957_j37452114821261_2_alg».proof.Proof.Gen.KernelIdeal.Points
import proofs.«111957_j37452114821261_2_alg».proof.Proof.Gen.KernelIdeal.Frame
import proofs.«111957_j37452114821261_2_alg».proof.Proof.Gen.ReferenceIdeal
import proofs.«111957_j37452114821261_2_alg».proof.Proof.Gen.Pre_finite_inputs
import proofs.«111957_j37452114821261_2_alg».proof.Proof.Gen.KernelIdeal.Value
import proofs.«111957_j37452114821261_2_alg».proof.Proof.Gen.ReferenceIdeal.Run
import proofs.«111957_j37452114821261_2_alg».proof.Proof.Gen.ReferenceIdeal.Read
import proofs.«111957_j37452114821261_2_alg».proof.Proof.KernelRun
import proofs.«111957_j37452114821261_2_alg».proof.Proof.KernelAt
import proofs.«111957_j37452114821261_2_alg».proof.Proof.RefAt
import proofs.«111957_j37452114821261_2_alg».proof.Proof.Finite
import proofs.«111957_j37452114821261_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals. -/
theorem preserves : Cert.preserves_Kernel_KernelIdeal := trivial

/-- From memories agreeing on finite arguments the kernel's result array and the reference's hold the
    same extended reals: at (b, l, c) the two-pass quotient and the one-pass softmax contraction. -/
theorem algebraic : Cert.algebraic_KernelIdeal_ReferenceIdeal := by
  intro m ρ m' ρ' hpre hagree
  refine ⟨fun c => Cert.KernelIdeal.PoolRun.pooled (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PoolRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2]
  obtain ⟨hX, hA, hW⟩ := Cert.Pool.finite_of_pre _ _ _ (hpre c)
  funext i
  exact (Cert.ReferenceIdeal.RefAt.ref_at _ _ _ i).trans
    ((Cert.Pool.kerVal_eq_refVal _ _ _ hX hA hW _ _ _).symm.trans (Cert.KernelIdeal.KernelAt.kernel_at _ _ _ i).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
